-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x512 : Shape := ⟨3, ![16, 2048, 512]⟩
abbrev S8 : Shape := ⟨1, ![8]⟩
abbrev S2048x8 : Shape := ⟨2, ![2048, 8]⟩
abbrev S512x2048 : Shape := ⟨2, ![512, 2048]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S8 : S_.BroadcastsInDim S8 (![] : Fin 0 → Fin S8.rank)
  reducesTo_S8_S_d0 : S8.ReducesTo [0] S_
  bcast_S_S2048x8 : S_.BroadcastsInDim S2048x8 (![] : Fin 0 → Fin S2048x8.rank)
  reducesTo_S2048x8_S_d0_1 : S2048x8.ReducesTo [0, 1] S_
  bcast_S_S512x2048 : S_.BroadcastsInDim S512x2048 (![] : Fin 0 → Fin S512x2048.rank)
  reducesTo_S512x2048_S_d0_1 : S512x2048.ReducesTo [0, 1] S_

variable [Facts]

def fn_part1 {F : FTy → Type} [FloatOps F] (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  main_v18

def fn {F : FTy → Type} [FloatOps F] (main_arg0 : FVec F S16x2048x512 .f32) (main_arg1 : FVec F S8 .f32) (main_arg2 : FVec F S2048x8 .f32) (main_arg3 : FVec F S512x2048 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S2048x8 .f32 := Host.absf main_arg2
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  let main_c_3 : IVec S_ 1 := constantI S_ 1 1#1
  let main_v12 : IVec S_ 1 := (fun x v => Host.reduce IntOp.andi x v reducesTo_S2048x8_S_d0_1 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_v13 main_v16
-- ==== Kernel.lean ====
abbrev S16x2048x512 : Shape := ⟨3, ![16, 2048, 512]⟩
abbrev S8 : Shape := ⟨1, ![8]⟩
abbrev S2048x8 : Shape := ⟨2, ![2048, 8]⟩
abbrev S512x2048 : Shape := ⟨2, ![512, 2048]⟩
abbrev S32768x512 : Shape := ⟨2, ![32768, 512]⟩
abbrev S1x8 : Shape := ⟨2, ![1, 8]⟩
abbrev S8x2048 : Shape := ⟨2, ![8, 2048]⟩
abbrev S2048x512 : Shape := ⟨2, ![2048, 512]⟩
abbrev S2048x128 : Shape := ⟨2, ![2048, 128]⟩
abbrev S2048x2048 : Shape := ⟨2, ![2048, 2048]⟩

abbrev nBuf : Space → Nat
  | .hbm => 12
  | .vmem => 7
  | .smem => 0
  | _ => 0

abbrev bufTy : (tb : Table) → Fin (tcTables nBuf tb) → BufTy
  | .hbm, ⟨0, _⟩ => ⟨S16x2048x512, .f32⟩
  | .hbm, ⟨1, _⟩ => ⟨S8, .f32⟩
  | .hbm, ⟨2, _⟩ => ⟨S2048x8, .f32⟩
  | .hbm, ⟨3, _⟩ => ⟨S512x2048, .f32⟩
  | .hbm, ⟨4, _⟩ => ⟨S32768x512, .f32⟩
  | .hbm, ⟨5, _⟩ => ⟨S1x8, .f32⟩
  | .hbm, ⟨6, _⟩ => ⟨S8x2048, .f32⟩
  | .hbm, ⟨7, _⟩ => ⟨S8x2048, .bf16⟩
  | .hbm, ⟨8, _⟩ => ⟨S2048x512, .f32⟩
  | .hbm, ⟨9, _⟩ => ⟨S2048x512, .bf16⟩
  | .hbm, ⟨10, _⟩ => ⟨S32768x512, .f32⟩
  | .hbm, ⟨11, _⟩ => ⟨S16x2048x512, .f32⟩
  | .local _ .vmem, ⟨0, _⟩ => ⟨S2048x128, .f32⟩
  | .local _ .vmem, ⟨1, _⟩ => ⟨S2048x128, .f32⟩
  | .local _ .vmem, ⟨2, _⟩ => ⟨S1x8, .f32⟩
  | .local _ .vmem, ⟨3, _⟩ => ⟨S8x2048, .bf16⟩
  | .local _ .vmem, ⟨4, _⟩ => ⟨S2048x512, .bf16⟩
  | .local _ .vmem, ⟨5, _⟩ => ⟨S2048x512, .f32⟩
  | .local _ .vmem, ⟨6, _⟩ => ⟨S2048x512, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x2048x512_S32768x512 : S16x2048x512.ShapeCasts S32768x512
  shapeCasts_S8_S1x8 : S8.ShapeCasts S1x8
  transposes_S2048x8_S8x2048_1_0 : S2048x8.Transposes [1, 0] S8x2048
  bitsLt_bf16_f32 : FTy.bits .bf16 < FTy.bits .f32
  transposes_S512x2048_S2048x512_1_0 : S512x2048.Transposes [1, 0] S2048x512
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S2048x128_o0_0_S2048x8 : S2048x128.Slices ![0, 0] S2048x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2048x8 : S1x8.Broadcasts S2048x8
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S32768x512_S16x2048x512 : S32768x512.ShapeCasts S16x2048x512
  dot_S2048x8_S8x2048_S2048x2048_1_0_0_1_n_n_wf : DotDims.WF S2048x8 S8x2048 S2048x2048 [1] [0] [0] [1] [] []
  dot_S2048x2048_S2048x512_S2048x512_1_0_0_1_n_n_wf : DotDims.WF S2048x2048 S2048x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S32768x512.size a
  hwx0_0 : ∀ i : grid0.Coords, EltTy.bits .f32 = 32 ∨ (Rect.block (s := S32768x512) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S8x2048.size a
  hwx0_2 : ∀ i : grid0.Coords, EltTy.bits .bf16 = 32 ∨ (Rect.block (s := S8x2048) S8x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S32768x512.size a
  hwx0_4 : ∀ i : grid0.Coords, EltTy.bits .f32 = 32 ∨ (Rect.block (s := S32768x512) S2048x512.size (cc0_transform_4 i) (hinb0_4 i)).WholeWords (EltTy.packing .f32)

variable [Facts₀]

def dot_S2048x8_S8x2048_S2048x2048_1_0_0_1_n_n : DotDims S2048x8 S8x2048 S2048x2048 where
  lhsContracting := [1]
  rhsContracting := [0]
  lhsNonContracting := [0]
  rhsNonContracting := [1]
  lhsBatch := []
  rhsBatch := []
  wf := dot_S2048x8_S8x2048_S2048x2048_1_0_0_1_n_n_wf
def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x512 : Shape := ⟨3, ![16, 2048, 512]⟩
abbrev S8 : Shape := ⟨1, ![8]⟩
abbrev S2048x8 : Shape := ⟨2, ![2048, 8]⟩
abbrev S512x2048 : Shape := ⟨2, ![512, 2048]⟩
abbrev S16x2048x8 : Shape := ⟨3, ![16, 2048, 8]⟩
abbrev S_ : Shape := ⟨0, ![]⟩
abbrev S1x1x8 : Shape := ⟨3, ![1, 1, 8]⟩
abbrev S16x2048x2048 : Shape := ⟨3, ![16, 2048, 2048]⟩

abbrev nBuf : Space → Nat
  | .hbm => 17
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S8, .f32⟩
  | .hbm, ⟨2, _⟩ => ⟨S2048x8, .f32⟩
  | .hbm, ⟨3, _⟩ => ⟨S512x2048, .f32⟩
  | .hbm, ⟨4, _⟩ => ⟨S16x2048x8, .f32⟩
  | .hbm, ⟨5, _⟩ => ⟨S_, .f32⟩
  | .hbm, ⟨6, _⟩ => ⟨S16x2048x8, .f32⟩
  | .hbm, ⟨7, _⟩ => ⟨S16x2048x8, .f32⟩
  | .hbm, ⟨8, _⟩ => ⟨S1x1x8, .f32⟩
  | .hbm, ⟨9, _⟩ => ⟨S16x2048x8, .f32⟩
  | .hbm, ⟨10, _⟩ => ⟨S16x2048x8, .f32⟩
  | .hbm, ⟨11, _⟩ => ⟨S16x2048x8, .f32⟩
  | .hbm, ⟨12, _⟩ => ⟨S16x2048x2048, .f32⟩
  | .hbm, ⟨13, _⟩ => ⟨S_, .f32⟩
  | .hbm, ⟨14, _⟩ => ⟨S16x2048x2048, .f32⟩
  | .hbm, ⟨15, _⟩ => ⟨S16x2048x2048, .f32⟩
  | .hbm, ⟨16, _⟩ => ⟨S16x2048x512, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  slices_S16x2048x512_S16x2048x8_0_0_0 : S16x2048x512.Slices ![0, 0, 0] S16x2048x8
  bcast_S_S16x2048x8 : S_.BroadcastsInDim S16x2048x8 (![] : Fin 0 → Fin S16x2048x8.rank)
  bcast_S8_S1x1x8_2 : S8.BroadcastsInDim S1x1x8 (![2] : Fin 1 → Fin S1x1x8.rank)
  bcast_S1x1x8_S16x2048x8_0_1_2 : S1x1x8.BroadcastsInDim S16x2048x8 (![0, 1, 2] : Fin 3 → Fin S16x2048x8.rank)
  bcast_S_S16x2048x2048 : S_.BroadcastsInDim S16x2048x2048 (![] : Fin 0 → Fin S16x2048x2048.rank)
  dot_S16x2048x8_S2048x8_S16x2048x2048_2_1_01_0_n_n_wf : DotDims.WF S16x2048x8 S2048x8 S16x2048x2048 [2] [1] [0, 1] [0] [] []
  dot_S16x2048x2048_S512x2048_S16x2048x512_2_1_01_0_n_n_wf : DotDims.WF S16x2048x2048 S512x2048 S16x2048x512 [2] [1] [0, 1] [0] [] []

variable [Facts₀]

def dot_S16x2048x8_S2048x8_S16x2048x2048_2_1_01_0_n_n : DotDims S16x2048x8 S2048x8 S16x2048x2048 where
  lhsContracting := [2]
  rhsContracting := [1]
  lhsNonContracting := [0, 1]
  rhsNonContracting := [0]
  lhsBatch := []
  rhsBatch := []
  wf := dot_S16x2048x8_S2048x8_S16x2048x2048_2_1_01_0_n_n_wf
def dot_S16x2048x2048_S512x2048_S16x2048x512_2_1_01_0_n_n : DotDims S16x2048x2048 S512x2048 S16x2048x512 where
  lhsContracting := [2]
  rhsContracting := [1]
  lhsNonContracting := [0, 1]
  rhsNonContracting := [0]
  lhsBatch := []
  rhsBatch := []
  wf := dot_S16x2048x2048_S512x2048_S16x2048x512_2_1_01_0_n_n_wf

class Facts : Prop extends Facts₀ where

variable [Facts]
-- ==== Proof.FfnSpec.lean ====
/-
  The feed-forward block with a cosine gate, as mathematics on the extended reals.

  A token carries 512 input channels of which only the first 8 are read. Channel q of those is turned into the
  gate value cos (2·x_q + θ_q); the 8 gate values are mapped to 2048 hidden units by the weights W1[f, q], each
  hidden unit is clipped below at 0, and the 2048 clipped units are mapped to 512 output channels by the weights
  W2[e, f]:

      out[e] = Σ_f max (Σ_q cos (2·x_q + θ_q) · W1[f, q]) 0 · W2[e, f].

  `token` is that double sum for one token and one output channel, over abstract rows of weights. `rows` states it
  for the 32768 tokens laid out as the rows of a matrix, with both weight matrices already transposed (the form in
  which a tiled matrix product consumes them); `batched` states it for the tokens laid out as 16 sequences of 2048,
  with the weight matrices as given. The constants 2 and 0 are kept as the single-precision words that denote them.
-/
import Idealize.ShloMosaic.Lib.ValueIdx
import Idealize.ShloMosaic.PureOps.Ideal.Laws

noncomputable section

namespace Cert.Ffn

open Idealize.ShloMosaic Idealize.ShloMosaic.ValueIdx

/-- The gate of one channel: the cosine of twice the input plus the channel's angle. -/
def gate (x θ : EReal) : EReal := Ideal.cos (Ideal.ofBits .f32 0x40000000#32 * x + θ)

/-- One token at one output channel: over the hidden units `f`, the gate values `g` weighted by row `f` of the first
    layer, clipped below at zero, times the second layer's weight from `f` to the channel. -/
def token (g : Fin 8 → EReal) (w1 : Fin 2048 → Fin 8 → EReal) (w2 : Fin 2048 → EReal) : EReal :=
  ∑ f : Fin 2048, max (∑ q : Fin 8, g q * w1 f q) (Ideal.ofBits .f32 0x00000000#32) * w2 f

/-- The gate reads the first 8 of a token's 512 channels. -/
abbrev lane512 (q : Fin 8) : Fin 512 := ⟨q.val, by omega⟩
/-- The same 8 channels inside the 128-channel strip of a token that is actually fetched. -/
abbrev lane128 (q : Fin 8) : Fin 128 := ⟨q.val, by omega⟩

/-- Tokens as the rows of a matrix; angles as a one-row matrix; both weight matrices transposed:
    `a2[q, f]` is the first layer's weight from channel `q` to unit `f`, `a3[f, e]` the second layer's from `f` to `e`. -/
def rows (a0 : (⟨2, ![32768, 512]⟩ : Shape).Idx → EReal) (a1 : (⟨2, ![1, 8]⟩ : Shape).Idx → EReal)
    (a2 : (⟨2, ![8, 2048]⟩ : Shape).Idx → EReal) (a3 : (⟨2, ![2048, 512]⟩ : Shape).Idx → EReal) :
    (⟨2, ![32768, 512]⟩ : Shape).Idx → EReal := fun i =>
  token (fun q => gate (a0 (ix2 (n0 := 32768) (n1 := 512) (i 0) (lane512 q))) (a1 (ix2 (n0 := 1) (n1 := 8) 0 q)))
    (fun f q => a2 (ix2 (n0 := 8) (n1 := 2048) q f)) (fun f => a3 (ix2 (n0 := 2048) (n1 := 512) f (i 1)))

/-- Tokens as 16 sequences of 2048; angles as a vector; the weight matrices as given, `W1[f, q]` and `W2[e, f]`. -/
def batched (x : (⟨3, ![16, 2048, 512]⟩ : Shape).Idx → EReal) (θ : (⟨1, ![8]⟩ : Shape).Idx → EReal)
    (W1 : (⟨2, ![2048, 8]⟩ : Shape).Idx → EReal) (W2 : (⟨2, ![512, 2048]⟩ : Shape).Idx → EReal) :
    (⟨3, ![16, 2048, 512]⟩ : Shape).Idx → EReal := fun i =>
  token (fun q => gate (x (ix3 (n0 := 16) (n1 := 2048) (n2 := 512) (i 0) (i 1) (lane512 q))) (θ (ix1 (n := 8) q)))
    (fun f q => W1 (ix2 (n0 := 2048) (n1 := 8) f q)) (fun f => W2 (ix2 (n0 := 512) (n1 := 2048) (i 2) f))

end Cert.Ffn

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.FfnDots.lean ====
/-
  The kernel's two matrix products read at an entry.

  Both contract axis 1 of the left factor with axis 0 of the right factor, with no batch axis, into a zero
  accumulator: at entry (r, c) the product is Σ_k l[r, k] · r[k, c]. The general statement is `LibMatmulIdx.matmul2_apply`;
  here its hypotheses — which coordinate of each operand index is the result's row, the result's column, or the
  contracted position — are read off the two contraction records of the program.
-/
import proofs.«119144_j65481071396095_2_alg».proof.Proof.Gen.KernelIdeal
import proofs.«119144_j65481071396095_2_alg».proof.Proof.LibMatmulIdx

noncomputable section

namespace Cert.Ffn

open Idealize.ShloMosaic Idealize.ShloMosaic.ValueIdx Cert.KernelIdeal Cert.KernelIdeal.Gen

/-- The first product, gate values [2048, 8] by first-layer weights [8, 2048]: Σ over the 8 gate channels. -/
theorem gateProduct_apply {φ₁ φ₂ : FTy} (l : FVec Ideal S2048x8 φ₁) (r : FVec Ideal S8x2048 φ₂) (j : S2048x2048.Idx) :
    FloatOps.matmul (F := Ideal) dot_S2048x8_S8x2048_S2048x2048_1_0_0_1_n_n none l r (constant S2048x2048 .f32 0x00000000#32) j
      = ∑ k : Fin 8, l (ix2 (n0 := 2048) (n1 := 8) (j 0) k) * r (ix2 (n0 := 8) (n1 := 2048) k (j 1)) :=
  LibMatmulIdx.matmul2_apply (M := 2048) (K := 8) (N := 2048) dot_S2048x8_S8x2048_S2048x2048_1_0_0_1_n_n rfl rfl
    (fun j k => by
      unfold DotDims.lhsIdx
      rw [dif_neg (show ¬(0 : Fin S2048x8.rank) ∈ dot_S2048x8_S8x2048_S2048x2048_1_0_0_1_n_n.lhsBatch by decide),
        dif_pos (show (0 : Fin S2048x8.rank) ∈ dot_S2048x8_S8x2048_S2048x2048_1_0_0_1_n_n.lhsNonContracting by decide)]
      rfl)
    (fun j k => dot_S2048x8_S8x2048_S2048x2048_1_0_0_1_n_n.lhsIdx_val_of_single rfl j k)
    (fun j k => dot_S2048x8_S8x2048_S2048x2048_1_0_0_1_n_n.rhsIdx_val_of_single rfl j k)
    (fun j k => by
      unfold DotDims.rhsIdx
      rw [dif_neg (show ¬(1 : Fin S8x2048.rank) ∈ dot_S2048x8_S8x2048_S2048x2048_1_0_0_1_n_n.rhsBatch by decide),
        dif_pos (show (1 : Fin S8x2048.rank) ∈ dot_S2048x8_S8x2048_S2048x2048_1_0_0_1_n_n.rhsNonContracting by decide)]
      rfl)
    none l r j

/-- The second product, hidden units [2048, 2048] by second-layer weights [2048, 512]: Σ over the 2048 hidden units. -/
theorem hiddenProduct_apply {φ₁ φ₂ : FTy} (l : FVec Ideal S2048x2048 φ₁) (r : FVec Ideal S2048x512 φ₂) (j : S2048x512.Idx) :
    FloatOps.matmul (F := Ideal) dot_S2048x2048_S2048x512_S2048x512_1_0_0_1_n_n none l r (constant S2048x512 .f32 0x00000000#32) j
      = ∑ k : Fin 2048, l (ix2 (n0 := 2048) (n1 := 2048) (j 0) k) * r (ix2 (n0 := 2048) (n1 := 512) k (j 1)) :=
  LibMatmulIdx.matmul2_apply (M := 2048) (K := 2048) (N := 512) dot_S2048x2048_S2048x512_S2048x512_1_0_0_1_n_n rfl rfl
    (fun j k => by
      unfold DotDims.lhsIdx
      rw [dif_neg (show ¬(0 : Fin S2048x2048.rank) ∈ dot_S2048x2048_S2048x512_S2048x512_1_0_0_1_n_n.lhsBatch by decide),
        dif_pos (show (0 : Fin S2048x2048.rank) ∈ dot_S2048x2048_S2048x512_S2048x512_1_0_0_1_n_n.lhsNonContracting by decide)]
      rfl)
    (fun j k => dot_S2048x2048_S2048x512_S2048x512_1_0_0_1_n_n.lhsIdx_val_of_single rfl j k)
    (fun j k => dot_S2048x2048_S2048x512_S2048x512_1_0_0_1_n_n.rhsIdx_val_of_single rfl j k)
    (fun j k => by
      unfold DotDims.rhsIdx
      rw [dif_neg (show ¬(1 : Fin S2048x512.rank) ∈ dot_S2048x2048_S2048x512_S2048x512_1_0_0_1_n_n.rhsBatch by decide),
        dif_pos (show (1 : Fin S2048x512.rank) ∈ dot_S2048x2048_S2048x512_S2048x512_1_0_0_1_n_n.rhsNonContracting by decide)]
      rfl)
    none l r j

end Cert.Ffn

end
-- ==== Proof.FfnPayload.lean ====
/-
  What the kernel body stores, read at one entry.

  The body loads a strip of 2048 tokens by 128 channels, the row of 8 angles, and both transposed weight matrices
  whole. Of the strip it keeps the first 8 channels, forms the gate values cos (2·x + θ) with the angles repeated
  down the rows, multiplies them by the first-layer weights, clips at zero, and multiplies by the second-layer
  weights; the two narrowings to half-width floats in between change nothing at exact arithmetic. So row `r`, column
  `e` of what it stores is `token` of that row's 8 gate values, the first layer's weights and column `e` of the second
  layer's: the two products are read as sums (`gateProduct_apply`, `hiddenProduct_apply`), the slice as the strip at
  the same row and channel, the repeated angles as the one row of angles.
-/
import proofs.«119144_j65481071396095_2_alg».proof.Proof.Gen.KernelIdeal.Skeleton
import proofs.«119144_j65481071396095_2_alg».proof.Proof.FfnSpec
import proofs.«119144_j65481071396095_2_alg».proof.Proof.FfnDots
import Idealize.ShloMosaic.Lib.ValueLayout
import Idealize.ShloMosaic.Lib.Pipeline.Value

noncomputable section

namespace Cert.Ffn

open Idealize.ShloMosaic Idealize.ShloMosaic.ValueIdx Cert.KernelIdeal Cert.KernelIdeal.Gen

/-- Row `r`, column `e` of the stored block, from the loaded strip `x0`, angles `x1` and weights `x2`, `x3`. -/
theorem stored_apply (x0 : Vec Ideal S2048x128 .f32) (x1 : Vec Ideal S1x8 .f32) (x2 : Vec Ideal S8x2048 .bf16)
    (x3 : Vec Ideal S2048x512 .bf16) (r : Fin 2048) (e : Fin 512) :
    k0_pay1 (F := Ideal) x0 x1 x2 x3 (ix2 (n0 := 2048) (n1 := 512) r e)
      = token (fun q => gate (x0 (ix2 (n0 := 2048) (n1 := 128) r (lane128 q))) (x1 (ix2 (n0 := 1) (n1 := 8) 0 q)))
          (fun f q => x2 (ix2 (n0 := 8) (n1 := 2048) q f)) (fun f => x3 (ix2 (n0 := 2048) (n1 := 512) f e)) := by
  have hx0 : shapeCast S2048x128 x0 shapeCasts_S2048x128_S2048x128 = x0 := shapeCast_self _ _
  have hx1 : shapeCast S1x8 x1 shapeCasts_S1x8_S1x8 = x1 := shapeCast_self _ _
  have hx2 : shapeCast S8x2048 x2 shapeCasts_S8x2048_S8x2048 = x2 := shapeCast_self _ _
  have hx3 : shapeCast S2048x512 x3 shapeCasts_S2048x512_S2048x512 = x3 := shapeCast_self _ _
  unfold k0_pay1
  -- the second product: a sum over the hidden units
  refine (hiddenProduct_apply _ _ _).trans ?_
  unfold token
  refine Finset.sum_congr rfl fun f _ => ?_
  refine congrArg₂ (· * ·) (congrArg₂ max ?_ rfl) (congrFun hx3 _)
  -- the first product: a sum over the gate channels
  refine (gateProduct_apply _ _ _).trans ?_
  refine Finset.sum_congr rfl fun q _ => ?_
  refine congrArg₂ (· * ·) ?_ (congrFun hx2 _)
  -- one gate value: the slice is the strip at the same row and channel, the repeated angles the one row of angles
  show Ideal.cos (Ideal.ofBits .f32 0x40000000#32
      * extractStridedSlice S2048x8 ![0, 0] (shapeCast S2048x128 x0 shapeCasts_S2048x128_S2048x128) slices_S2048x128_o0_0_S2048x8
          (ix2 (n0 := 2048) (n1 := 8) r q)
      + broadcastTo S2048x8 (shapeCast S1x8 x1 shapeCasts_S1x8_S1x8) broadcasts_S1x8_S2048x8 (ix2 (n0 := 2048) (n1 := 8) r q)) = _
  unfold gate
  rw [hx0, hx1, slice2_axis1_apply 0 x0 slices_S2048x128_o0_0_S2048x8 r q (lane128 q) (Nat.zero_add _).symm,
    broadcastTo_1b_ab_apply x1 broadcasts_S1x8_S2048x8 r q]

end Cert.Ffn

end
-- ==== Proof.FfnBlocks.lean ====
/-
  From the blocks the grid points write back to the whole matrix after the region.

  The grid has 16 points. Point `t` fetches rows 2048·t … 2048·t + 2047 of the token matrix, and of those rows only
  the first 128 columns; it fetches the row of angles and both weight matrices whole (the same block at every
  point); and it writes back rows 2048·t … 2048·t + 2047 of the result, all 512 columns. So what point `t` writes
  back is the block at `t` of one matrix, `rows` of the four arrays the region finds, because entry (r, e) of the
  stored block depends on the strip only through row r, that is row 2048·t + r of the token matrix. The 16 row
  blocks tile the result, the block holding row `i` being the one at point i / 2048, so after the region the
  result array IS `rows` of the four arrays.
-/
import proofs.«119144_j65481071396095_2_alg».proof.Proof.Gen.KernelIdeal.Frame
import proofs.«119144_j65481071396095_2_alg».proof.Proof.FfnPayload
import Idealize.ShloMosaic.Lib.Pipeline.Value

noncomputable section

namespace Cert.Ffn

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

theorem offsets_zero : (![0, 0] : Fin 2 → Nat) = fun _ => 0 := funext fun a => by fin_cases a <;> rfl

/-- The printed block-index maps over the grid: the token strip and the result move down one row block per point
    and stay at column block 0; the angles and the weights stay at block (0, 0). -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The token strip at point `t`: row `y 0`, channel `y 1` of it is row 2048·t + y 0, channel `y 1` of the token matrix. -/
theorem strip_apply (c : Dev nD) (t : Fin cfg0.N) (y : S2048x128.Idx) (k : S32768x512.Idx)
    (hk0 : (k 0).val = 2048 * t.val + (y 0).val) (hk1 : (k 1).val = (y 1).val) :
    (iblk m c 0 t : Vec Ideal S2048x128 .f32) y = (V m c main_v0 : S32768x512.Idx → EReal) k := by
  obtain ⟨e0, e1, -⟩ := block_index t
  unfold iblk
  rw [View.read_apply]
  show V m c main_v0 _ = V m c main_v0 _
  congr 1
  funext a
  apply Fin.ext
  match a with
  | ⟨0, _⟩ => show win0_0.index t (0 : Fin 2) * 2048 + 1 * (y 0).val = (k 0).val; rw [e0, hk0]; omega
  | ⟨1, _⟩ => show win0_0.index t (1 : Fin 2) * 128 + 1 * (y 1).val = (k 1).val; rw [e1, hk1]; omega

/-- The angles' block at any point is the whole one-row matrix of angles. -/
theorem angles_apply (c : Dev nD) (t : Fin cfg0.N) (y : S1x8.Idx) :
    (iblk m c 1 t : Vec Ideal S1x8 .f32) y = (V m c main_v1 : S1x8.Idx → EReal) y := by
  obtain ⟨-, -, e0, e1, -⟩ := block_index t
  unfold iblk
  rw [View.read_apply]
  show V m c main_v1 _ = V m c main_v1 _
  congr 1
  funext a
  apply Fin.ext
  match a with
  | ⟨0, _⟩ => show win0_1.index t (0 : Fin 2) * 1 + 1 * (y 0).val = (y 0).val; rw [e0]; omega
  | ⟨1, _⟩ => show win0_1.index t (1 : Fin 2) * 8 + 1 * (y 1).val = (y 1).val; rw [e1]; omega

/-- The first layer's block at any point is the whole transposed first-layer matrix. -/
theorem firstLayer_apply (c : Dev nD) (t : Fin cfg0.N) (y : S8x2048.Idx) :
    (iblk m c 2 t : Vec Ideal S8x2048 .bf16) y = (V m c main_v3 : S8x2048.Idx → EReal) y := by
  obtain ⟨-, -, -, -, e0, e1, -⟩ := block_index t
  unfold iblk
  rw [View.read_apply]
  show V m c main_v3 _ = V m c main_v3 _
  congr 1
  funext a
  apply Fin.ext
  match a with
  | ⟨0, _⟩ => show win0_2.index t (0 : Fin 2) * 8 + 1 * (y 0).val = (y 0).val; rw [e0]; omega
  | ⟨1, _⟩ => show win0_2.index t (1 : Fin 2) * 2048 + 1 * (y 1).val = (y 1).val; rw [e1]; omega

/-- The second layer's block at any point is the whole transposed second-layer matrix. -/
theorem secondLayer_apply (c : Dev nD) (t : Fin cfg0.N) (y : S2048x512.Idx) :
    (iblk m c 3 t : Vec Ideal S2048x512 .bf16) y = (V m c main_v5 : S2048x512.Idx → EReal) y := by
  obtain ⟨-, -, -, -, -, -, e0, e1, -⟩ := block_index t
  unfold iblk
  rw [View.read_apply]
  show V m c main_v5 _ = V m c main_v5 _
  congr 1
  funext a
  apply Fin.ext
  match a with
  | ⟨0, _⟩ => show win0_3.index t (0 : Fin 2) * 2048 + 1 * (y 0).val = (y 0).val; rw [e0]; omega
  | ⟨1, _⟩ => show win0_3.index t (1 : Fin 2) * 512 + 1 * (y 1).val = (y 1).val; rw [e1]; omega

/-- The stored block as a block of `rows`: for any strip, angles and weights that are, entry by entry, the entries of
    four matrices `a0 … a3` — the strip's row `j 0` being row `i 0` of `a0` on the 8 gate channels — entry `j` of what the
    body stores is entry `i` of `rows a0 a1 a2 a3`, when `i` and `j` are in the same column. -/
theorem stored_eq_rows (x0 : Vec Ideal S2048x128 .f32) (x1 : Vec Ideal S1x8 .f32) (x2 : Vec Ideal S8x2048 .bf16)
    (x3 : Vec Ideal S2048x512 .bf16) (a0 : S32768x512.Idx → EReal) (a1 : S1x8.Idx → EReal) (a2 : S8x2048.Idx → EReal)
    (a3 : S2048x512.Idx → EReal) (j : S2048x512.Idx) (i : S32768x512.Idx)
    (h0 : ∀ q : Fin 8, x0 (ix2 (n0 := 2048) (n1 := 128) (j 0) (lane128 q)) = a0 (ix2 (n0 := 32768) (n1 := 512) (i 0) (lane512 q)))
    (h1 : ∀ y, x1 y = a1 y) (h2 : ∀ y, x2 y = a2 y) (h3 : ∀ y, x3 y = a3 y) (hcol : i 1 = j 1) :
    k0_pay1 (F := Ideal) x0 x1 x2 x3 j = rows a0 a1 a2 a3 i := by
  obtain ⟨r, e, rfl⟩ : ∃ (r : Fin 2048) (e : Fin 512), j = ix2 (n0 := 2048) (n1 := 512) r e := ⟨j 0, j 1, eq_ix2 j⟩
  have h0' : ∀ q : Fin 8, x0 (ix2 (n0 := 2048) (n1 := 128) r (lane128 q)) = a0 (ix2 (n0 := 32768) (n1 := 512) (i 0) (lane512 q)) := h0
  have hcol' : i 1 = e := hcol
  rw [stored_apply]
  unfold rows
  rw [hcol']
  simp only [h0', h1, h2, h3]

/-- WHAT POINT `t` WRITES BACK is the block at `t` of `rows` of the arrays the region finds. -/
theorem flushed_eq (c : Dev nD) (t : Fin cfg0.N) :
    (dats m 0 c).flushed 4 t = ((cfg0.win 4).blk t).view.read (Elt Ideal)
      (rows (V m c main_v0) (V m c main_v1) (V m c main_v3) (V m c main_v5)) := by
  show (cfg0.win 4).cut (grid0.coords t) ((dats m 0 c).after 4 t) = _
  rw [after0_4]
  unfold out0_4
  rw [View.canon_unit_zero offsets_zero]
  simp only [View.ld_unit_zero (S := S2048x128) offsets_zero, View.ld_unit_zero (S := S1x8) offsets_zero,
    View.ld_unit_zero (S := S8x2048) offsets_zero, View.ld_unit_zero (S := S2048x512) offsets_zero]
  obtain ⟨-, -, -, -, -, -, -, -, e0, e1⟩ := block_index t
  funext j
  rw [View.read_apply]
  refine stored_eq_rows (iblk m c 0 t) (iblk m c 1 t) (iblk m c 2 t) (iblk m c 3 t) (V m c main_v0) (V m c main_v1)
    (V m c main_v3) (V m c main_v5) j (((cfg0.win 4).blk t).view.emb j) (fun q => ?_) (angles_apply m c t)
    (firstLayer_apply m c t) (secondLayer_apply m c t) ?_
  · refine strip_apply m c t _ _ ?_ rfl
    show win0_4.index t (0 : Fin 2) * 2048 + 1 * (j 0).val = 2048 * t.val + (j 0).val
    rw [e0]; omega
  · apply Fin.ext
    show win0_4.index t (1 : Fin 2) * 512 + 1 * (j 1).val = (j 1).val
    rw [e1]; omega

/-- An entry of the result is in point `t`'s block iff, on each axis, its coordinate is in the block's range. -/
theorem mem_block (t : Fin cfg0.N) (i : S32768x512.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_v6).slice (win0_4.rect t)).set ↔ _
  rw [View.set_slice_whole, Rect.mem_set_unit]
  exact Iff.rfl

/-- The 16 row blocks tile the result: row `i 0` lies in the block of point `i 0 / 2048`, which is written back. -/
theorem covered (i : S32768x512.Idx) :
    ∃ t : Fin cfg0.N, (cfg0.win 4).flush t = true ∧ i ∈ ((cfg0.win 4).blk t).view.set := by
  have hi0 : (i 0).val < 32768 := (i 0).isLt
  have hi1 : (i 1).val < 512 := (i 1).isLt
  have hN : cfg0.N = 16 := N_0
  obtain ⟨t, ht⟩ : ∃ t : Fin cfg0.N, t.val = (i 0).val / 2048 := ⟨⟨(i 0).val / 2048, by rw [hN]; omega⟩, rfl⟩
  obtain ⟨-, -, -, -, -, -, -, -, e0, e1⟩ := block_index t
  refine ⟨t, flush0_4 t, ?_⟩
  rw [mem_block]
  intro a
  match a with
  | ⟨0, _⟩ =>
    show win0_4.index t (0 : Fin 2) * 2048 ≤ (i 0).val ∧ (i 0).val < win0_4.index t (0 : Fin 2) * 2048 + 2048
    rw [e0, ht]; omega
  | ⟨1, _⟩ =>
    show win0_4.index t (1 : Fin 2) * 512 ≤ (i 1).val ∧ (i 1).val < win0_4.index t (1 : Fin 2) * 512 + 512
    rw [e1]; omega

/-- THE RESULT ARRAY AFTER THE REGION is `rows` of the four arrays the region finds. -/
theorem result_found (c : Dev nD) :
    (dats m 0 c).arrAt 4 cfg0.N = rows (V m c main_v0) (V m c main_v1) (V m c main_v3) (V m c main_v5) :=
  (dats m 0 c).arrAt_eq_of_cover 4 _ (fun t _ => flushed_eq m c t) covered

end Cert.Ffn

end
-- ==== Proof.FfnLayout.lean ====
/-
  The two layouts of the same computation.

  The 16 sequences of 2048 tokens, read in row-major order, are the 32768 rows of a matrix: sequence `b`, position
  `s` is row 2048·b + s, with the same channel. The vector of 8 angles is a one-row matrix. A transposed weight
  matrix read at (q, f) is the matrix at (f, q), and narrowing its entries to half-width floats changes nothing at
  exact arithmetic. So `rows` of the flattened tokens, the one-row angles and the two transposed weight matrices,
  unflattened again into 16 sequences of 2048, is `batched` of the arguments as given: entry (b, s, e) of the former
  is entry (2048·b + s, e) of `rows`, whose token is (b, s) and whose weights are those of `batched`.
-/
import proofs.«119144_j65481071396095_2_alg».proof.Proof.FfnSpec
import Idealize.ShloMosaic.Lib.ValueLayout
import Idealize.ShloMosaic.Lib.Pipeline.Value

noncomputable section

namespace Cert.Ffn

open Idealize.ShloMosaic Idealize.ShloMosaic.ValueIdx

/-- Row 2048·b + s of the flattened tokens at channel `k` is token (b, s) at channel `k`. -/
theorem flatten_apply (x : (⟨3, ![16, 2048, 512]⟩ : Shape).Idx → EReal)
    (h : (⟨3, ![16, 2048, 512]⟩ : Shape).ShapeCasts ⟨2, ![32768, 512]⟩) (b : Fin 16) (s : Fin 2048) (k : Fin 512)
    (row : Fin 32768) (hrow : row.val = b.val * 2048 + s.val) :
    shapeCast ⟨2, ![32768, 512]⟩ x h (ix2 (n0 := 32768) (n1 := 512) row k) = x (ix3 (n0 := 16) (n1 := 2048) (n2 := 512) b s k) :=
  shapeCast_apply x h _ _ (by
    rw [Shape.rowMajor_val_two, Shape.rowMajor_val_three]
    show (b.val * 2048 + s.val) * 512 + k.val = row.val * 512 + k.val
    rw [hrow])

/-- Entry (b, s, e) of the unflattened matrix is entry (2048·b + s, e) of the matrix. -/
theorem unflatten_apply (y : (⟨2, ![32768, 512]⟩ : Shape).Idx → EReal)
    (h : (⟨2, ![32768, 512]⟩ : Shape).ShapeCasts ⟨3, ![16, 2048, 512]⟩) (b : Fin 16) (s : Fin 2048) (e : Fin 512)
    (row : Fin 32768) (hrow : row.val = b.val * 2048 + s.val) :
    shapeCast ⟨3, ![16, 2048, 512]⟩ y h (ix3 (n0 := 16) (n1 := 2048) (n2 := 512) b s e) = y (ix2 (n0 := 32768) (n1 := 512) row e) :=
  shapeCast_apply y h _ _ (by
    rw [Shape.rowMajor_val_two, Shape.rowMajor_val_three]
    show row.val * 512 + e.val = (b.val * 2048 + s.val) * 512 + e.val
    rw [hrow])

/-- `rows` on the flattened, transposed operands, unflattened, is `batched` on the operands as given. -/
theorem unflatten_rows (x : (⟨3, ![16, 2048, 512]⟩ : Shape).Idx → EReal) (θ : (⟨1, ![8]⟩ : Shape).Idx → EReal)
    (W1 : (⟨2, ![2048, 8]⟩ : Shape).Idx → EReal) (W2 : (⟨2, ![512, 2048]⟩ : Shape).Idx → EReal)
    (h0 : (⟨3, ![16, 2048, 512]⟩ : Shape).ShapeCasts ⟨2, ![32768, 512]⟩) (h1 : (⟨1, ![8]⟩ : Shape).ShapeCasts ⟨2, ![1, 8]⟩)
    (h2 : (⟨2, ![2048, 8]⟩ : Shape).Transposes [1, 0] ⟨2, ![8, 2048]⟩)
    (h3 : (⟨2, ![512, 2048]⟩ : Shape).Transposes [1, 0] ⟨2, ![2048, 512]⟩)
    (h7 : (⟨2, ![32768, 512]⟩ : Shape).ShapeCasts ⟨3, ![16, 2048, 512]⟩) (hb : FTy.bits .bf16 < FTy.bits .f32) :
    shapeCast ⟨3, ![16, 2048, 512]⟩
        (rows (shapeCast ⟨2, ![32768, 512]⟩ x h0) (shapeCast ⟨2, ![1, 8]⟩ θ h1)
          (truncf (F := Ideal) .bf16 (transpose ⟨2, ![8, 2048]⟩ [1, 0] W1 h2) hb)
          (truncf (F := Ideal) .bf16 (transpose ⟨2, ![2048, 512]⟩ [1, 0] W2 h3) hb)) h7
      = batched x θ W1 W2 := by
  funext i
  obtain ⟨b, s, e, rfl⟩ : ∃ (b : Fin 16) (s : Fin 2048) (e : Fin 512), i = ix3 (n0 := 16) (n1 := 2048) (n2 := 512) b s e :=
    ⟨i 0, i 1, i 2, eq_ix3 i⟩
  have hlt : b.val * 2048 + s.val < 32768 := by have := b.isLt; have := s.isLt; omega
  rw [unflatten_apply _ h7 b s e ⟨b.val * 2048 + s.val, hlt⟩ rfl]
  show token (fun q => gate (shapeCast ⟨2, ![32768, 512]⟩ x h0 (ix2 (n0 := 32768) (n1 := 512) ⟨b.val * 2048 + s.val, hlt⟩ (lane512 q)))
        (shapeCast ⟨2, ![1, 8]⟩ θ h1 (ix2 (n0 := 1) (n1 := 8) 0 q)))
      (fun f q => transpose ⟨2, ![8, 2048]⟩ [1, 0] W1 h2 (ix2 (n0 := 8) (n1 := 2048) q f))
      (fun f => transpose ⟨2, ![2048, 512]⟩ [1, 0] W2 h3 (ix2 (n0 := 2048) (n1 := 512) f e))
    = token (fun q => gate (x (ix3 (n0 := 16) (n1 := 2048) (n2 := 512) b s (lane512 q))) (θ (ix1 (n := 8) q)))
      (fun f q => W1 (ix2 (n0 := 2048) (n1 := 8) f q)) (fun f => W2 (ix2 (n0 := 512) (n1 := 2048) e f))
  simp only [transpose_ix2_apply W1 h2, transpose_ix2_apply W2 h3, shapeCast_a_1a_apply,
    flatten_apply x h0 b s _ ⟨b.val * 2048 + s.val, hlt⟩ rfl]

end Cert.Ffn

end
-- ==== Proof.FfnKernelRun.lean ====
/-
  The kernel program's run, read: its result is `batched` of its arguments.

  Before the region the program flattens the tokens into a matrix, makes the angles a one-row matrix, and transposes
  and narrows both weight matrices; these four are the arrays the region finds. The region leaves `rows` of them in
  its result matrix (`result_found`). After the region the program unflattens that matrix into 16 sequences of 2048
  tokens. The unflattened `rows` of the flattened, transposed operands is `batched` of the operands as given
  (`unflatten_rows`), and the arguments themselves are written by nothing.
-/
import proofs.«119144_j65481071396095_2_alg».proof.Proof.FfnBlocks
import proofs.«119144_j65481071396095_2_alg».proof.Proof.FfnLayout
import Idealize.ShloMosaic.Lib.StableHlo.Run

noncomputable section

namespace Cert.Ffn

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The token matrix the region finds: the tokens flattened. -/
theorem tokens_found (c : Dev nD) : (V m c main_v0 : S32768x512.Idx → EReal)
    = shapeCast S32768x512 (m ((c : Thread nD τ).loc main_arg0) : S16x2048x512.Idx → EReal) shapeCasts_S16x2048x512_S32768x512 := by
  show StableHlo.after hostOps0 (fun b => m (c, b)) (Proc.devRef .tc main_v0) = _
  after_results <;> rfl

/-- The angles the region finds: the vector of angles as a one-row matrix. -/
theorem angles_found (c : Dev nD) : (V m c main_v1 : S1x8.Idx → EReal)
    = shapeCast S1x8 (m ((c : Thread nD τ).loc main_arg1) : S8.Idx → EReal) shapeCasts_S8_S1x8 := by
  show StableHlo.after hostOps0 (fun b => m (c, b)) (Proc.devRef .tc main_v1) = _
  after_results <;> rfl

/-- The first-layer weights the region finds: the given matrix transposed, then narrowed. -/
theorem firstLayer_found (c : Dev nD) : (V m c main_v3 : S8x2048.Idx → EReal)
    = truncf (F := Ideal) .bf16 (transpose S8x2048 [1, 0] (m ((c : Thread nD τ).loc main_arg2) : S2048x8.Idx → EReal)
        transposes_S2048x8_S8x2048_1_0) bitsLt_bf16_f32 := by
  show StableHlo.after hostOps0 (fun b => m (c, b)) (Proc.devRef .tc main_v3) = _
  after_results <;> rfl

/-- The second-layer weights the region finds: the given matrix transposed, then narrowed. -/
theorem secondLayer_found (c : Dev nD) : (V m c main_v5 : S2048x512.Idx → EReal)
    = truncf (F := Ideal) .bf16 (transpose S2048x512 [1, 0] (m ((c : Thread nD τ).loc main_arg3) : S512x2048.Idx → EReal)
        transposes_S512x2048_S2048x512_1_0) bitsLt_bf16_f32 := by
  show StableHlo.after hostOps0 (fun b => m (c, b)) (Proc.devRef .tc main_v5) = _
  after_results <;> rfl

/-- The program's result after the line that follows the region: the region's result matrix, unflattened. -/
theorem result_after (c : Dev nD) : Pipeline.afterTail₀ cfgs (dats m) 0 (V0 m) [hostOps1] c main_v7
    = shapeCast S16x2048x512 ((dats m 0 c).arrAt 4 cfg0.N : S32768x512.Idx → EReal) shapeCasts_S32768x512_S16x2048x512 := by
  have hw := Pipeline.withArrays_arr spec0 launch0.win.arr_inj c (V0 m c) (fun w => (dats m 0 c).arrAt w cfg0.N) 4
  unfold Pipeline.afterTail₀
  show StableHlo.after hostOps1 _ (Proc.devRef .tc main_v7) = _
  after_results
  refine Eq.trans ?_ (congrArg (fun A : S32768x512.Idx → EReal => shapeCast S16x2048x512 A shapeCasts_S32768x512_S16x2048x512) hw)
  rfl

/-- So the program's result is `batched` of its four arguments. -/
theorem result_eq (c : Dev nD) : Pipeline.afterTail₀ cfgs (dats m) 0 (V0 m) [hostOps1] c main_v7
    = batched (m ((c : Thread nD τ).loc main_arg0) : S16x2048x512.Idx → EReal) (m ((c : Thread nD τ).loc main_arg1) : S8.Idx → EReal)
        (m ((c : Thread nD τ).loc main_arg2) : S2048x8.Idx → EReal) (m ((c : Thread nD τ).loc main_arg3) : S512x2048.Idx → EReal) := by
  rw [result_after, result_found, tokens_found, angles_found, firstLayer_found, secondLayer_found]
  exact unflatten_rows _ _ _ _ _ _ _ _ _ _

/-- THE RUN: every weakly fair execution of the kernel program terminates, its result at `batched` of the arguments,
    the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v7)
        = batched (m ((c.tc : Thread nD τ).loc main_arg0) : S16x2048x512.Idx → EReal) (m ((c.tc : Thread nD τ).loc main_arg1) : S8.Idx → EReal)
            (m ((c.tc : Thread nD τ).loc main_arg2) : S2048x8.Idx → EReal) (m ((c.tc : Thread nD τ).loc main_arg3) : S512x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Ffn

end
-- ==== Proof.FfnReference.lean ====
/-
  The reference program's result is `batched` of its arguments.

  The reference slices the first 8 channels of every token, forms cos (2·x + θ) with the angles repeated over all
  tokens, contracts the 8 gate channels with the first-layer weights W1[f, q], clips at zero, and contracts the 2048
  hidden units with the second-layer weights W2[e, f]. Read at entry (b, s, e), one operation at a time, that is
  Σ_f max (Σ_q cos (2·x[b, s, q] + θ[q]) · W1[f, q]) 0 · W2[e, f]: each operand index the readings compose is named
  by its coordinates, and the two sides are then the same term.
-/
import proofs.«119144_j65481071396095_2_alg».proof.Proof.Gen.ReferenceIdeal.Read
import proofs.«119144_j65481071396095_2_alg».proof.Proof.FfnSpec

noncomputable section

namespace Cert.Ffn

open Idealize.ShloMosaic Idealize.ShloMosaic.ValueIdx
open Cert.ReferenceIdeal Cert.ReferenceIdeal.Read

theorem reference_eq (x0 : S16x2048x512.Idx → EReal) (x1 : S8.Idx → EReal) (x2 : S2048x8.Idx → EReal)
    (x3 : S512x2048.Idx → EReal) : val_main_v9 (F := Ideal) x0 x1 x2 x3 = batched x0 x1 x2 x3 := by
  funext i
  rw [val_main_v9_apply]
  unfold batched token
  refine Finset.sum_congr rfl fun f _ => ?_
  -- the second-layer weight read for hidden unit `f` is W2[e, f]
  have hW2 : ridx_main_v9 i f = ix2 (n0 := 512) (n1 := 2048) (i 2) f :=
    funext fun a => by match a with | ⟨0, _⟩ => rfl | ⟨1, _⟩ => rfl
  rw [hW2, val_main_v8_apply, val_main_v7_apply, val_main_call0_v0_apply, val_main_call0_cst_apply]
  refine congrArg₂ (· * ·) (congrArg₂ max (Finset.sum_congr rfl fun q _ => ?_) rfl) rfl
  -- the first-layer weight read for gate channel `q` is W1[f, q]; the gate reads token (b, s) at channel `q` and angle `q`
  have hW1 : ridx_main_v7 (lidx_main_v9 i f) q = ix2 (n0 := 2048) (n1 := 8) f q :=
    funext fun a => by match a with | ⟨0, _⟩ => rfl | ⟨1, _⟩ => rfl
  have hx : idx_main_v0 (lidx_main_v7 (lidx_main_v9 i f) q) = ix3 (n0 := 16) (n1 := 2048) (n2 := 512) (i 0) (i 1) (lane512 q) :=
    funext fun a => by match a with | ⟨0, _⟩ => rfl | ⟨1, _⟩ => rfl | ⟨2, _⟩ => rfl
  have hθ : idx_main_v3 (idx_main_v4 (lidx_main_v7 (lidx_main_v9 i f) q)) = ix1 (n := 8) q :=
    funext fun a => by match a with | ⟨0, _⟩ => rfl
  rw [hW1, val_main_v6_apply, val_main_v5_apply, val_main_v2_apply, val_main_v1_apply, val_main_cst_apply, val_main_v0_apply,
    val_main_v4_apply, val_main_v3_apply, hx, hθ]
  rfl

end Cert.Ffn

end
-- ==== Proof.lean ====
/-
  A feed-forward block with a cosine gate: the tiled kernel against its plain reference, at exact arithmetic.

  For each of 16 × 2048 tokens with 512 channels, both programs compute, for every output channel e,

      out[e] = Σ_f max (Σ_q cos (2·x_q + θ_q) · W1[f, q]) 0 · W2[e, f],

  q over the token's first 8 channels, f over 2048 hidden units (`Cert.Ffn.batched`, FfnSpec.lean).

  The reference does so literally: a slice, the gate, two contractions with a clip at zero between them
  (FfnReference.lean, over the generated reading of the reference one operation at a time).

  The kernel program flattens the tokens to a 32768-row matrix, transposes both weight matrices and narrows them to
  half-width floats, and runs a grid of 16 points, each producing 2048 rows: it fetches those rows' first 128
  channels, keeps 8 of them, and forms the same gate, products and clip on the block, narrowing the intermediate
  values to half width before each product; finally the result matrix is unflattened. At exact arithmetic narrowing
  is the identity and a product into a zero accumulator is the plain sum, so each stored entry is the double sum above
  for its row (FfnDots.lean, FfnPayload.lean); the 16 row blocks tile the result (FfnBlocks.lean); and flattening,
  transposing and unflattening only rename indices (FfnLayout.lean, FfnKernelRun.lean). No step moves a factor across
  a sum or cancels anything, so the equality holds on all extended reals and the finiteness of the inputs is not used.

  The kernel is read at exact arithmetic exactly as printed (no rewrite was applied), so the statement relating the
  word-level kernel to its idealization is empty; the three termination-and-frame statements are the generated frame
  runs, the reference's being its generated run with the result dropped.
-/
import proofs.«119144_j65481071396095_2_alg».proof.Defs
import proofs.«119144_j65481071396095_2_alg».proof.Proof.Gen.Kernel
import proofs.«119144_j65481071396095_2_alg».proof.Proof.Gen.Kernel.Skeleton
import proofs.«119144_j65481071396095_2_alg».proof.Proof.Gen.Kernel.Launch
import proofs.«119144_j65481071396095_2_alg».proof.Proof.Gen.Kernel.Points
import proofs.«119144_j65481071396095_2_alg».proof.Proof.Gen.Kernel.Frame
import proofs.«119144_j65481071396095_2_alg».proof.Proof.Gen.KernelIdeal
import proofs.«119144_j65481071396095_2_alg».proof.Proof.Gen.KernelIdeal.Skeleton
import proofs.«119144_j65481071396095_2_alg».proof.Proof.Gen.KernelIdeal.Launch
import proofs.«119144_j65481071396095_2_alg».proof.Proof.Gen.KernelIdeal.Points
import proofs.«119144_j65481071396095_2_alg».proof.Proof.Gen.KernelIdeal.Frame
import proofs.«119144_j65481071396095_2_alg».proof.Proof.Gen.ReferenceIdeal
import proofs.«119144_j65481071396095_2_alg».proof.Proof.Gen.Pre_finite_inputs
import proofs.«119144_j65481071396095_2_alg».proof.Proof.Gen.ReferenceIdeal.Run
import proofs.«119144_j65481071396095_2_alg».proof.Proof.Gen.ReferenceIdeal.Read
import proofs.«119144_j65481071396095_2_alg».proof.Proof.FfnKernelRun
import proofs.«119144_j65481071396095_2_alg».proof.Proof.FfnReference
import Idealize.ShloMosaic.Adequacy
import Idealize.ShloMosaic.Init

noncomputable section

namespace Cert.Proof

open Idealize.ShloMosaic Idealize.SL.Sem

/-- The word-level kernel program terminates without a fault and leaves its arguments as they were. -/
theorem frame_kernel : Cert.frame_Kernel := fun m ρ _ => Cert.Kernel.Gen.frame m ρ

/-- So does the kernel program at exact arithmetic. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for exact arithmetic: nothing to state. -/
theorem preserves : Cert.preserves_Kernel_KernelIdeal := trivial

/-- From memories that agree on the four arguments both programs end with the same result, entry by entry:
    `batched` of the arguments (the kernel's run; the reference's run and `reference_eq`). -/
theorem algebraic : Cert.algebraic_KernelIdeal_ReferenceIdeal := by
  intro m ρ m' ρ' _ hagree
  refine ⟨_, Cert.Ffn.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v9_eq _ _ _ _).trans (Cert.Ffn.reference_eq _ _ _ _)).trans ?_
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
